-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S1x512x256 : Shape := ⟨3, ![1, 512, 256]⟩
abbrev S_ : Shape := ⟨0, ![]⟩
abbrev S16x2048 : Shape := ⟨2, ![16, 2048]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S1x512x256 : S_.BroadcastsInDim S1x512x256 (![] : Fin 0 → Fin S1x512x256.rank)
  reducesTo_S1x512x256_S_d0_1_2 : S1x512x256.ReducesTo [0, 1, 2] S_
  reducesTo_S16x2048x256_S16x2048_d2 : S16x2048x256.ReducesTo [2] S16x2048
  bcast_S_S16x2048 : S_.BroadcastsInDim S16x2048 (![] : Fin 0 → Fin S16x2048.rank)
  reducesTo_S16x2048_S_d0_1 : S16x2048.ReducesTo [0, 1] S_

variable [Facts]

def fn {F : FTy → Type} [FloatOps F] (main_arg0 : FVec F S16x2048x256 .f32) (main_arg1 : FVec F S1x512x256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S1x512x256 .f32 := Host.absf main_arg1
  let main_cst_0 : FVec F S_ .f32 := constant S_ .f32 0x7F800000#32
  let main_v5 : FVec F S1x512x256 .f32 := broadcastInDim S1x512x256 ![] bcast_S_S1x512x256 main_cst_0
  let main_v6 : IVec S1x512x256 1 := cmpf .olt main_v4 main_v5
  let main_c_1 : IVec S_ 1 := constantI S_ 1 1#1
  let main_v7 : IVec S_ 1 := (fun x v => Host.reduce IntOp.andi x v reducesTo_S1x512x256_S_d0_1_2 h_S_) main_v6 main_c_1
  let main_v8 : IVec S_ 1 := andi main_v3 main_v7
  let main_v9 : FVec F S16x2048x256 .f32 := mulf main_arg0 main_arg0
  let main_cst_2 : FVec F S_ .f32 := constant S_ .f32 0x00000000#32
  let main_v10 : FVec F S16x2048 .f32 := (fun x v => Host.reduceAdd x v reducesTo_S16x2048x256_S16x2048_d2 h_S_) main_v9 main_cst_2
  let main_cst_3 : FVec F S_ .f32 := constant S_ .f32 0x00000000#32
  let main_v11 : FVec F S16x2048 .f32 := broadcastInDim S16x2048 ![] bcast_S_S16x2048 main_cst_3
  let main_v12 : IVec S16x2048 1 := cmpf .ogt main_v10 main_v11
  let main_c_4 : IVec S_ 1 := constantI S_ 1 1#1
  let main_v13 : IVec S_ 1 := (fun x v => Host.reduce IntOp.andi x v reducesTo_S16x2048_S_d0_1 h_S_) main_v12 main_c_4
  let main_v14 : IVec S_ 1 := andi main_v8 main_v13
  main_v14
-- ==== Kernel.lean ====
abbrev S16x2048x256 : Shape := ⟨3, ![16, 2048, 256]⟩
abbrev S1x512x256 : Shape := ⟨3, ![1, 512, 256]⟩
abbrev S32768x256 : Shape := ⟨2, ![32768, 256]⟩
abbrev S512x256 : Shape := ⟨2, ![512, 256]⟩
abbrev S_ : Shape := ⟨0, ![]⟩
abbrev S512 : Shape := ⟨1, ![512]⟩
abbrev S512x1 : Shape := ⟨2, ![512, 1]⟩
abbrev S256x512 : Shape := ⟨2, ![256, 512]⟩
abbrev S1x512 : Shape := ⟨2, ![1, 512]⟩
abbrev S32768x512 : Shape := ⟨2, ![32768, 512]⟩
abbrev S4096x256 : Shape := ⟨2, ![4096, 256]⟩
abbrev S4096x512 : Shape := ⟨2, ![4096, 512]⟩
abbrev S4096 : Shape := ⟨1, ![4096]⟩
abbrev S4096x1 : Shape := ⟨2, ![4096, 1]⟩
abbrev S16x2048x512 : Shape := ⟨3, ![16, 2048, 512]⟩

abbrev nBuf : Space → Nat
  | .hbm => 19
  | .vmem => 6
  | .smem => 0
  | _ => 0

abbrev bufTy : (tb : Table) → Fin (tcTables nBuf tb) → BufTy
  | .hbm, ⟨0, _⟩ => ⟨S16x2048x256, .f32⟩
  | .hbm, ⟨1, _⟩ => ⟨S1x512x256, .f32⟩
  | .hbm, ⟨2, _⟩ => ⟨S32768x256, .f32⟩
  | .hbm, ⟨3, _⟩ => ⟨S512x256, .f32⟩
  | .hbm, ⟨4, _⟩ => ⟨S512x256, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x1, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S256x512, .f32⟩
  | .hbm, ⟨16, _⟩ => ⟨S1x512, .f32⟩
  | .hbm, ⟨17, _⟩ => ⟨S32768x512, .f32⟩
  | .hbm, ⟨18, _⟩ => ⟨S16x2048x512, .f32⟩
  | .local _ .vmem, ⟨0, _⟩ => ⟨S4096x256, .f32⟩
  | .local _ .vmem, ⟨1, _⟩ => ⟨S4096x256, .f32⟩
  | .local _ .vmem, ⟨2, _⟩ => ⟨S256x512, .f32⟩
  | .local _ .vmem, ⟨3, _⟩ => ⟨S1x512, .f32⟩
  | .local _ .vmem, ⟨4, _⟩ => ⟨S4096x512, .f32⟩
  | .local _ .vmem, ⟨5, _⟩ => ⟨S4096x512, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x2048x256_S32768x256 : S16x2048x256.ShapeCasts S32768x256
  shapeCasts_S1x512x256_S512x256 : S1x512x256.ShapeCasts S512x256
  reducesTo_S512x256_S512_d1 : S512x256.ReducesTo [1] S512
  h_S_ : 0 < S_.numel
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  transposes_S512x256_S256x512_1_0 : S512x256.Transposes [1, 0] S256x512
  shapeCasts_S512x1_S1x512 : S512x1.ShapeCasts S1x512
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  reduces_S4096x256_S4096 : S4096x256.Reduces [1] S4096
  shapeCasts_S4096_S4096x1 : S4096.ShapeCasts S4096x1
  broadcasts_S4096x1_S4096x256 : S4096x1.Broadcasts S4096x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S4096x1_S4096x512 : S4096x1.Broadcasts S4096x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  shapeCasts_S32768x512_S16x2048x512 : S32768x512.ShapeCasts S16x2048x512
  dot_S4096x256_S256x512_S4096x512_1_0_0_1_n_n_wf : DotDims.WF S4096x256 S256x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S32768x256.size a
  hwx0_0 : ∀ i : grid0.Coords, EltTy.bits .f32 = 32 ∨ (Rect.block (s := S32768x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S32768x512.size a
  hwx0_3 : ∀ i : grid0.Coords, EltTy.bits .f32 = 32 ∨ (Rect.block (s := S32768x512) S4096x512.size (cc0_transform_3 i) (hinb0_3 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S1x512x256 : Shape := ⟨3, ![1, 512, 256]⟩
abbrev S_ : Shape := ⟨0, ![]⟩
abbrev S16x2048 : Shape := ⟨2, ![16, 2048]⟩
abbrev S16x2048x1 : Shape := ⟨3, ![16, 2048, 1]⟩
abbrev S512x256 : Shape := ⟨2, ![512, 256]⟩
abbrev S512 : Shape := ⟨1, ![512]⟩
abbrev S512x1 : Shape := ⟨2, ![512, 1]⟩
abbrev S16x2048x512 : Shape := ⟨3, ![16, 2048, 512]⟩
abbrev S1x1x512 : Shape := ⟨3, ![1, 1, 512]⟩

abbrev nBuf : Space → Nat
  | .hbm => 33
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S1x512x256, .f32⟩
  | .hbm, ⟨2, _⟩ => ⟨S16x2048x256, .f32⟩
  | .hbm, ⟨3, _⟩ => ⟨S_, .f32⟩
  | .hbm, ⟨4, _⟩ => ⟨S16x2048, .f32⟩
  | .hbm, ⟨5, _⟩ => ⟨S16x2048x1, .f32⟩
  | .hbm, ⟨6, _⟩ => ⟨S16x2048x1, .f32⟩
  | .hbm, ⟨7, _⟩ => ⟨S16x2048x256, .f32⟩
  | .hbm, ⟨8, _⟩ => ⟨S16x2048x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x1, .f32⟩
  | .hbm, ⟨15, _⟩ => ⟨S512x256, .f32⟩
  | .hbm, ⟨16, _⟩ => ⟨S512x256, .f32⟩
  | .hbm, ⟨17, _⟩ => ⟨S16x2048x256, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S512x256, .f32⟩
  | .hbm, ⟨22, _⟩ => ⟨S_, .f32⟩
  | .hbm, ⟨23, _⟩ => ⟨S512, .f32⟩
  | .hbm, ⟨24, _⟩ => ⟨S16x2048x512, .f32⟩
  | .hbm, ⟨25, _⟩ => ⟨S1x1x512, .f32⟩
  | .hbm, ⟨26, _⟩ => ⟨S16x2048x512, .f32⟩
  | .hbm, ⟨27, _⟩ => ⟨S16x2048x512, .f32⟩
  | .hbm, ⟨28, _⟩ => ⟨S16x2048x512, .f32⟩
  | .hbm, ⟨29, _⟩ => ⟨S_, .f32⟩
  | .hbm, ⟨30, _⟩ => ⟨S16x2048x512, .f32⟩
  | .hbm, ⟨31, _⟩ => ⟨S16x2048x512, .f32⟩
  | .hbm, ⟨32, _⟩ => ⟨S16x2048x512, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  reducesTo_S16x2048x256_S16x2048_d2 : S16x2048x256.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x256_0_1_2 : S16x2048x1.BroadcastsInDim S16x2048x256 (![0, 1, 2] : Fin 3 → Fin S16x2048x256.rank)
  shapeCasts_S1x512x256_S512x256 : S1x512x256.ShapeCasts S512x256
  reducesTo_S512x256_S512_d1 : S512x256.ReducesTo [1] S512
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S512_S1x1x512_2 : S512.BroadcastsInDim S1x1x512 (![2] : Fin 1 → Fin S1x1x512.rank)
  bcast_S16x2048x1_S16x2048x512_0_1_2 : S16x2048x1.BroadcastsInDim S16x2048x512 (![0, 1, 2] : Fin 3 → Fin S16x2048x512.rank)
  bcast_S1x1x512_S16x2048x512_0_1_2 : S1x1x512.BroadcastsInDim S16x2048x512 (![0, 1, 2] : Fin 3 → Fin S16x2048x512.rank)
  bcast_S_S16x2048x512 : S_.BroadcastsInDim S16x2048x512 (![] : Fin 0 → Fin S16x2048x512.rank)
  dot_S16x2048x256_S512x256_S16x2048x512_2_1_01_0_n_n_wf : DotDims.WF S16x2048x256 S512x256 S16x2048x512 [2] [1] [0, 1] [0] [] []

variable [Facts₀]

def dot_S16x2048x256_S512x256_S16x2048x512_2_1_01_0_n_n : DotDims S16x2048x256 S512x256 S16x2048x512 where
  lhsContracting := [2]
  rhsContracting := [1]
  lhsNonContracting := [0, 1]
  rhsNonContracting := [0]
  lhsBatch := []
  rhsBatch := []
  wf := dot_S16x2048x256_S512x256_S16x2048x512_2_1_01_0_n_n_wf

class Facts : Prop extends Facts₀ where

variable [Facts]
-- ==== Proof.RowsPositive.lean ====
/-
  What the precondition says about the feature rows.

  The precondition is the conjunction of three tests, each an "and" over a whole array: every feature is finite, every
  codebook entry is finite, and every feature row has a positive sum of squares. The third is the one the proof uses:
  a feature row whose sum of squares is zero is the zero row, which the reference divides by the zero norm. Read at row
  `(b, s)` it says `0 < Σ_d x(b, s, d)²`: the all-ones test gives a one at every row, the comparison that is one there
  is the strict order on the extended reals, its right side is the zero word, and its left side is the host's sum over
  the last axis from the zero word, that is, the plain sum of the row's 256 squares.
-/
import proofs.«172701_j55714315764172_2_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.Pre_finite_inputs.Rows

open Cert.Pre_finite_inputs Idealize.ShloMosaic Idealize.ShloMosaic.ValueIdx

variable [Cert.Pre_finite_inputs.Facts]
open Cert.Pre_finite_inputs.Facts

instance : Subsingleton S_.Idx := ⟨fun a b => funext fun d => d.elim0⟩

/-- A "greater than" comparison of extended reals that answers one is the strict order. -/
theorem lt_of_cmp_ogt {a b : EReal} (h : Ideal.cmp .ogt a b = 1#1) : b < a := by
  by_contra hlt
  simp [Ideal.cmp, hlt] at h

/-- The host's sum over the last axis, from the zero word, at row `(b, s)`: the sum of the row's 256 entries. -/
theorem reduceAdd_row (y : FVec Ideal S16x2048x256 .f32) (b : Fin 16) (s : Fin 2048) :
    Host.reduceAdd (F := Ideal) y (constant (F := Ideal) S_ .f32 0x00000000#32) reducesTo_S16x2048x256_S16x2048_d2 h_S_ (ix2 b s)
      = ∑ d : Fin 256, y (ix3 b s d) := by
  simp only [Host.reduceAdd, Ideal.hostReduceAdd_def]
  rw [Ideal.hostReduceAdd_single reducesTo_S16x2048x256_S16x2048_d2 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl | ⟨2, _⟩ => rfl))

/-- EVERY FEATURE ROW HAS A POSITIVE SUM OF SQUARES, under the precondition. -/
theorem rows_pos (x : FVec Ideal S16x2048x256 .f32) (ck : FVec Ideal S1x512x256 .f32)
    (h : fn (F := Ideal) x ck = fun _ => 1#1) (b : Fin 16) (s : Fin 2048) :
    0 < ∑ d : Fin 256, x (ix3 b s d) * x (ix3 b s d) := by
  have h0 := congrFun h ix0
  dsimp only [fn] at h0
  have h1 := (IntOp.andi_eq_one.mp h0).2
  have h2 := Host.reduce_andi_all _ _ _ _ _ h1 (ix2 b s)
  have h3 := lt_of_cmp_ogt h2
  have hz : broadcastInDim S16x2048 ![] bcast_S_S16x2048 (constant (F := Ideal) S_ .f32 0x00000000#32) (ix2 b s) = 0 :=
    (broadcastInDim_apply _ bcast_S_S16x2048 _ (ix2 b s) ix0 (fun a => a.elim0)).trans Ideal.ofBits_zero_f32
  rw [hz, reduceAdd_row] at h3
  exact h3

end Cert.Pre_finite_inputs.Rows

end
-- ==== Proof.Spec.lean ====
/-
  The distance between a unit-length feature row and a unit-length codebook row, as one formula.

  For a feature row `u` and a codebook row `c`, both already scaled, the squared euclidean distance is expanded as
  `|u|² + |c|² − 2 ⟨u, c⟩`. Both programs compute exactly this; they differ only in how the feature row is scaled:
  one multiplies every entry by the reciprocal square root of the row's sum of squares `s`, the other divides every
  entry by the square root of `s`. On the extended reals these agree whenever `0 < s` — also at `s = ⊤`, where both
  give `0` — and disagree only at `s = 0`, where the product `0 · ⊤` is `0` and the quotient `0 / 0` is not.
-/
import Idealize.ShloMosaic.PureOps.Ideal.Laws
import Idealize.ShloMosaic.Lib.ValueIdx

noncomputable section

namespace Cert.UnitDist

open Idealize.ShloMosaic

/-- The factor `2` of the cross term, as the word both programs carry. -/
def two : EReal := Ideal.ofBits .f32 0x40000000#32

/-- One entry of the result: from a scaled feature row `u`, the squared length `csq` of a scaled codebook row and
    that codebook row `c`, the value `(|u|² + csq) − 2 ⟨u, c⟩`, the sums over the 256 coordinates. -/
def entryOf (u : Fin 256 → EReal) (csq : EReal) (c : Fin 256 → EReal) : EReal :=
  ((∑ d : Fin 256, u d * u d) + csq) - two * ∑ d : Fin 256, u d * c d

/-- Scaling by the reciprocal square root is dividing by the square root, for a positive radicand: at a positive real
    `r` both are the product with `(√r)⁻¹`, and at `⊤` the reciprocal square root is `0` while the quotient by `√⊤ = ⊤`
    is the product with `⊤⁻¹ = 0`. -/
theorem mul_rsqrt_eq_div_sqrt (x s : EReal) (hs : 0 < s) : x * Ideal.rsqrt s = Ideal.div x (Ideal.sqrt s) := by
  induction s using EReal.rec with
  | bot => exact absurd hs (not_lt.mpr bot_le)
  | top => rw [Ideal.rsqrt_top, Ideal.sqrt_top, Ideal.div, if_neg EReal.top_ne_zero, EReal.inv_top]
  | coe r =>
    have hr : 0 < r := EReal.coe_pos.mp hs
    have hq : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hq, one_div]

end Cert.UnitDist

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.Payload.lean ====
/-
  What the kernel body computes for one block of rows, read at an entry.

  The body receives a block `x0` of 4096 feature rows, the whole 256 × 512 matrix `x1` whose column `q` is codebook row
  `q` (already scaled to unit length), and the 1 × 512 row `x2` of the codebook rows' squared lengths. It scales each
  feature row by the reciprocal square root of its sum of squares, sums the squares of the scaled row, multiplies the
  scaled rows with the matrix, and stores `(|u|² + x2) − 2 · (u · x1)`. At entry `(p, q)` this is `entryOf` of the
  scaled row `p`, of `x2` at `q` and of column `q` of the matrix: every step of the body is either entrywise or one of
  four layout steps (a row sum, a vector laid out as a column, a column or a row copied across), each read at its
  coordinates.
-/
import proofs.«172701_j55714315764172_2_alg».proof.Proof.Gen.KernelIdeal.Skeleton
import proofs.«172701_j55714315764172_2_alg».proof.Proof.Spec
import proofs.«172701_j55714315764172_2_alg».proof.Proof.LibColumnForms
import proofs.«172701_j55714315764172_2_alg».proof.Proof.LibRowForms
import Idealize.ShloMosaic.Lib.ValueLayout
import Idealize.ShloMosaic.Lib.Pipeline.Value

noncomputable section

namespace Cert.KernelIdeal.Dist

open Cert.KernelIdeal Cert.KernelIdeal.Gen Idealize.ShloMosaic Idealize.ShloMosaic.ValueIdx Cert.UnitDist

/-- The left operand's index at output `i` and contraction index `k`: the output's row. -/
theorem lhs_row (i : S4096x512.Idx) (k : dot_S4096x256_S256x512_S4096x512_1_0_0_1_n_n.contr.Idx) : (dot_S4096x256_S256x512_S4096x512_1_0_0_1_n_n.lhsIdx i k 0).val = (i 0).val := by
  unfold DotDims.lhsIdx
  rw [dif_neg (show ¬(0 : Fin S4096x256.rank) ∈ dot_S4096x256_S256x512_S4096x512_1_0_0_1_n_n.lhsBatch by decide), dif_pos (show (0 : Fin S4096x256.rank) ∈ dot_S4096x256_S256x512_S4096x512_1_0_0_1_n_n.lhsNonContracting by decide)]
  rfl
/-- … and the contracted coordinate. -/
theorem lhs_col (i : S4096x512.Idx) (k : dot_S4096x256_S256x512_S4096x512_1_0_0_1_n_n.contr.Idx) : (dot_S4096x256_S256x512_S4096x512_1_0_0_1_n_n.lhsIdx i k 1).val = (k ⟨0, by decide⟩).val :=
  dot_S4096x256_S256x512_S4096x512_1_0_0_1_n_n.lhsIdx_val_of_single rfl i k
/-- The right operand's index: the contracted coordinate … -/
theorem rhs_row (i : S4096x512.Idx) (k : dot_S4096x256_S256x512_S4096x512_1_0_0_1_n_n.contr.Idx) : (dot_S4096x256_S256x512_S4096x512_1_0_0_1_n_n.rhsIdx i k 0).val = (k ⟨0, by decide⟩).val :=
  dot_S4096x256_S256x512_S4096x512_1_0_0_1_n_n.rhsIdx_val_of_single rfl i k
/-- … and the output's column. -/
theorem rhs_col (i : S4096x512.Idx) (k : dot_S4096x256_S256x512_S4096x512_1_0_0_1_n_n.contr.Idx) : (dot_S4096x256_S256x512_S4096x512_1_0_0_1_n_n.rhsIdx i k 1).val = (i 1).val := by
  unfold DotDims.rhsIdx
  rw [dif_neg (show ¬(1 : Fin S256x512.rank) ∈ dot_S4096x256_S256x512_S4096x512_1_0_0_1_n_n.rhsBatch by decide), dif_pos (show (1 : Fin S256x512.rank) ∈ dot_S4096x256_S256x512_S4096x512_1_0_0_1_n_n.rhsNonContracting by decide)]
  rfl

/-- The product of a block of rows `l` with a 256 × 512 matrix `r`, accumulated from zero, at `(p, q)`: the sum over
    the 256 shared coordinates of row `p` of `l` times column `q` of `r`. The contraction has one axis, so its index is
    that coordinate; the left operand is read at `(p, d)` and the right at `(d, q)`. -/
theorem matmul_entry (l : FVec Ideal S4096x256 .f32) (r : FVec Ideal S256x512 .f32) (p : Fin 4096) (q : Fin 512) :
    matmul (F := Ideal) dot_S4096x256_S256x512_S4096x512_1_0_0_1_n_n none l r (constant (F := Ideal) S4096x512 .f32 0x00000000#32) (ix2 p q)
      = ∑ d : Fin 256, l (ix2 p d) * r (ix2 d q) := by
  simp only [matmul]
  rw [Ideal.matmul_constant_zero_apply, ← Equiv.sum_comp (contrEquiv1 dot_S4096x256_S256x512_S4096x512_1_0_0_1_n_n 256 rfl rfl).symm]
  refine Finset.sum_congr rfl fun k _ => ?_
  have hk := contrEquiv1_symm_val dot_S4096x256_S256x512_S4096x512_1_0_0_1_n_n 256 rfl rfl k
  have el : dot_S4096x256_S256x512_S4096x512_1_0_0_1_n_n.lhsIdx (ix2 p q) ((contrEquiv1 dot_S4096x256_S256x512_S4096x512_1_0_0_1_n_n 256 rfl rfl).symm k) = ix2 p k := funext fun a => Fin.ext (by
    match a with
    | ⟨0, _⟩ => exact lhs_row _ _
    | ⟨1, _⟩ => exact (lhs_col _ _).trans hk)
  have er : dot_S4096x256_S256x512_S4096x512_1_0_0_1_n_n.rhsIdx (ix2 p q) ((contrEquiv1 dot_S4096x256_S256x512_S4096x512_1_0_0_1_n_n 256 rfl rfl).symm k) = ix2 k q := funext fun a => Fin.ext (by
    match a with
    | ⟨0, _⟩ => exact (rhs_row _ _).trans hk
    | ⟨1, _⟩ => exact rhs_col _ _)
  rw [el, er]

/-- The block of feature rows, each scaled by the reciprocal square root of its own sum of squares: the row sums,
    laid out as a column, inverted entrywise, copied across the 256 columns and multiplied in. -/
def unitRows (x0 : FVec Ideal S4096x256 .f32) : FVec Ideal S4096x256 .f32 :=
  mulf x0 (broadcastTo S4096x256 (rsqrt (shapeCast S4096x1 (multiReduction (F := Ideal) .add [1] S4096 (mulf x0 x0) 0x00000000#32
    reduces_S4096x256_S4096 (.inl rfl) rfl) shapeCasts_S4096_S4096x1)) broadcasts_S4096x1_S4096x256)

/-- Entry `(p, d)` of the scaled block: the entry times the reciprocal square root of row `p`'s sum of squares. -/
theorem unitRows_apply (x0 : FVec Ideal S4096x256 .f32) (p : Fin 4096) (d : Fin 256) :
    unitRows x0 (ix2 p d) = x0 (ix2 p d) * Ideal.rsqrt (∑ e : Fin 256, x0 (ix2 p e) * x0 (ix2 p e)) := by
  unfold unitRows
  rw [mulf_apply]
  refine congrArg (x0 (ix2 p d) * ·) ?_
  refine (Cert.ColumnForms.broadcastTo_a1_ab_apply _ broadcasts_S4096x1_S4096x256 p d).trans ?_
  refine congrArg Ideal.rsqrt ?_
  refine (Cert.ColumnForms.shapeCast_a_a1_apply _ shapeCasts_S4096_S4096x1 p 0).trans ?_
  exact Cert.RowForms.multiReduction_add_rows (mulf x0 x0) reduces_S4096x256_S4096 p

/-- The body's stored value, with the scaled block named: the three shape casts of the loaded blocks to their own
    shapes are the identity. -/
theorem pay_eq (x0 : FVec Ideal S4096x256 .f32) (x1 : FVec Ideal S256x512 .f32) (x2 : FVec Ideal S1x512 .f32) :
    k0_pay1 (F := Ideal) x0 x1 x2
      = subf (addf (broadcastTo S4096x512 (shapeCast S4096x1 (multiReduction (F := Ideal) .add [1] S4096 (mulf (unitRows x0) (unitRows x0)) 0x00000000#32
            reduces_S4096x256_S4096 (.inl rfl) rfl) shapeCasts_S4096_S4096x1) broadcasts_S4096x1_S4096x512)
          (broadcastTo S4096x512 x2 broadcasts_S1x512_S4096x512))
        (mulf (broadcast S4096x512 (Scalar.ofBits (F := Ideal) .f32 0x40000000#32))
          (matmul (F := Ideal) dot_S4096x256_S256x512_S4096x512_1_0_0_1_n_n none (unitRows x0) x1 (constant (F := Ideal) S4096x512 .f32 0x00000000#32))) := by
  unfold k0_pay1 unitRows
  simp only [shapeCast_self]

/-- THE PAYLOAD AT AN ENTRY: at `(p, q)` the stored value is `entryOf` of the scaled row `p`, the squared length `x2` at
    `q` and column `q` of the matrix. -/
theorem pay_apply (x0 : FVec Ideal S4096x256 .f32) (x1 : FVec Ideal S256x512 .f32) (x2 : FVec Ideal S1x512 .f32) (p : Fin 4096) (q : Fin 512) :
    k0_pay1 (F := Ideal) x0 x1 x2 (ix2 p q)
      = entryOf (fun d => x0 (ix2 p d) * Ideal.rsqrt (∑ e : Fin 256, x0 (ix2 p e) * x0 (ix2 p e))) (x2 (ix2 (0 : Fin 1) q)) (fun d => x1 (ix2 d q)) := by
  rw [pay_eq, subf_apply, addf_apply, mulf_apply, broadcast_apply]
  have hA := (Cert.ColumnForms.broadcastTo_a1_ab_apply (shapeCast S4096x1 (multiReduction (F := Ideal) .add [1] S4096 (mulf (unitRows x0) (unitRows x0)) 0x00000000#32
      reduces_S4096x256_S4096 (.inl rfl) rfl) shapeCasts_S4096_S4096x1) broadcasts_S4096x1_S4096x512 p q).trans
    ((Cert.ColumnForms.shapeCast_a_a1_apply _ shapeCasts_S4096_S4096x1 p 0).trans
      (Cert.RowForms.multiReduction_add_rows (mulf (unitRows x0) (unitRows x0)) reduces_S4096x256_S4096 p))
  have hB := broadcastTo_1b_ab_apply x2 broadcasts_S1x512_S4096x512 p q
  have hM := matmul_entry (unitRows x0) x1 p q
  rw [hA, hB, hM]
  simp only [mulf_apply, unitRows_apply]
  rfl

end Cert.KernelIdeal.Dist

end
-- ==== Proof.Blocks.lean ====
/-
  From the blocks the grid points write to the whole array of distances.

  The pipeline has eight points. Point `t` reads rows `4096 t … 4096 t + 4095` of the 32768 × 256 array of feature
  rows, the whole 256 × 512 matrix of scaled codebook columns and the whole 1 × 512 row of their squared lengths, and
  writes rows `4096 t … 4096 t + 4095` of the 32768 × 512 result. Entry `(r, k)` of the result depends on feature row
  `r` alone, so what point `t` writes back is the block of ONE function of the three arrays, `distRows`; the eight
  blocks tile the result (row `r` lies in the block of point `r / 4096`), hence after the run the result array is that
  function.
-/
import proofs.«172701_j55714315764172_2_alg».proof.Proof.Gen.KernelIdeal.Frame
import proofs.«172701_j55714315764172_2_alg».proof.Proof.Payload
import Idealize.ShloMosaic.Lib.Pipeline.Value

set_option maxRecDepth 16384

noncomputable section

namespace Cert.KernelIdeal.Dist

open Cert.KernelIdeal Cert.KernelIdeal.Gen Idealize.ShloMosaic Idealize.ShloMosaic.TcCoe Idealize.SL.Sem
open Idealize.ShloMosaic.ValueIdx Cert.UnitDist
open Idealize.ShloMosaic.Pipeline (Dat)

/-- Entry `(r, k)` of the result from the three arrays: `entryOf` of feature row `r` scaled by the reciprocal square
    root of its sum of squares, the squared length at `k` and column `k` of the matrix. -/
def rowEntry (xf : S32768x256.Idx → EReal) (cT : S256x512.Idx → EReal) (csq : S1x512.Idx → EReal) (r : Fin 32768) (k : Fin 512) : EReal :=
  entryOf (fun d => xf (ix2 r d) * Ideal.rsqrt (∑ e : Fin 256, xf (ix2 r e) * xf (ix2 r e))) (csq (ix2 (0 : Fin 1) k)) (fun d => cT (ix2 d k))

/-- The whole 32768 × 512 result as one function of the three arrays. -/
def distRows (xf : S32768x256.Idx → EReal) (cT : S256x512.Idx → EReal) (csq : S1x512.Idx → EReal) : S32768x512.Idx → EReal :=
  fun i => rowEntry xf cT csq ⟨(i 0).val, (i 0).isLt⟩ ⟨(i 1).val, (i 1).isLt⟩

theorem distRows_apply (xf : S32768x256.Idx → EReal) (cT : S256x512.Idx → EReal) (csq : S1x512.Idx → EReal) (r : Fin 32768) (k : Fin 512) :
    distRows xf cT csq (ix2 r k) = rowEntry xf cT csq r k := rfl

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the eight points: the feature rows' window and the result's window are at block
    `(t, 0)`, the matrix's and the squared lengths' windows at block `(0, 0)`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 8 := by
  have h := t.isLt
  have hN : cfg0.N = 8 := N_0
  omega

/-- Row `p` of the feature block at point `t` is row `4096 t + p` of the feature array. -/
theorem featBlock_apply (c : Dev nD) (t : Fin cfg0.N) (p : Fin 4096) (d : Fin 256) (hr : t.val * 4096 + p.val < 32768) :
    iblk m c 0 t (ix2 p d) = V m c main_v0 (ix2 (⟨t.val * 4096 + p.val, hr⟩ : Fin 32768) d) := by
  obtain ⟨e0, e1, -, -, -, -, -, -⟩ := block_indices t
  show V m c main_v0 (((cfg0.win 0).blk t).view.emb (ix2 p d)) = V m c main_v0 _
  refine congrArg (V m c main_v0) (funext fun a => Fin.ext ?_)
  match a with
  | ⟨0, _⟩ => show win0_0.index t (0 : Fin 2) * 4096 + 1 * p.val = t.val * 4096 + p.val; omega
  | ⟨1, _⟩ => show win0_0.index t (1 : Fin 2) * 256 + 1 * d.val = d.val; omega

/-- The matrix's block at every point is the whole matrix. -/
theorem matBlock_apply (c : Dev nD) (t : Fin cfg0.N) (d : Fin 256) (q : Fin 512) :
    iblk m c 1 t (ix2 d q) = V m c main_v11 (ix2 d q) := by
  obtain ⟨-, -, e0, e1, -, -, -, -⟩ := block_indices t
  show V m c main_v11 (((cfg0.win 1).blk t).view.emb (ix2 d q)) = V m c main_v11 _
  refine congrArg (V m c main_v11) (funext fun a => Fin.ext ?_)
  match a with
  | ⟨0, _⟩ => show win0_1.index t (0 : Fin 2) * 256 + 1 * d.val = d.val; omega
  | ⟨1, _⟩ => show win0_1.index t (1 : Fin 2) * 512 + 1 * q.val = q.val; omega

/-- The squared lengths' block at every point is the whole row. -/
theorem sqBlock_apply (c : Dev nD) (t : Fin cfg0.N) (u : Fin 1) (q : Fin 512) :
    iblk m c 2 t (ix2 u q) = V m c main_v12 (ix2 u q) := by
  obtain ⟨-, -, -, -, e0, e1, -, -⟩ := block_indices t
  show V m c main_v12 (((cfg0.win 2).blk t).view.emb (ix2 u q)) = V m c main_v12 _
  refine congrArg (V m c main_v12) (funext fun a => Fin.ext ?_)
  match a with
  | ⟨0, _⟩ => show win0_2.index t (0 : Fin 2) * 1 + 1 * u.val = u.val; omega
  | ⟨1, _⟩ => show win0_2.index t (1 : Fin 2) * 512 + 1 * q.val = q.val; omega

/-- WHAT POINT `t` WRITES BACK is block `t` of `distRows` of the three arrays as the region finds them. -/
theorem flushed_eq (c : Dev nD) (t : Fin cfg0.N) :
    (dats m 0 c).flushed 3 t = ((cfg0.win 3).blk t).view.read (Elt Ideal) (distRows (V m c main_v0) (V m c main_v11) (V m c main_v12)) := by
  show (cfg0.win 3).cut (grid0.coords t) ((dats m 0 c).after 3 t) = _
  rw [after0_3]
  unfold out0_3
  rw [View.canon_unit_zero zero_offsets]
  simp only [View.ld_unit_zero (S := S4096x256) zero_offsets, View.ld_unit_zero (S := S256x512) zero_offsets, View.ld_unit_zero (S := S1x512) zero_offsets]
  obtain ⟨-, -, -, -, -, -, e0, e1⟩ := block_indices t
  have ht := point_lt t
  funext j
  obtain ⟨p, q, rfl⟩ : ∃ (p : Fin 4096) (q : Fin 512), j = ix2 p q := ⟨j 0, j 1, eq_ix2 j⟩
  have hr : t.val * 4096 + p.val < 32768 := by have := p.isLt; omega
  have hemb : ((cfg0.win 3).blk t).view.emb (ix2 p q) = ix2 (⟨t.val * 4096 + p.val, hr⟩ : Fin 32768) q := by
    funext a; apply Fin.ext
    match a with
    | ⟨0, _⟩ => show win0_3.index t (0 : Fin 2) * 4096 + 1 * p.val = t.val * 4096 + p.val; omega
    | ⟨1, _⟩ => show win0_3.index t (1 : Fin 2) * 512 + 1 * q.val = q.val; omega
  show k0_pay1 (iblk m c 0 t) (iblk m c 1 t) (iblk m c 2 t) (ix2 p q) = distRows (V m c main_v0) (V m c main_v11) (V m c main_v12) (((cfg0.win 3).blk t).view.emb (ix2 p q))
  rw [hemb, distRows_apply]
  refine (pay_apply (iblk m c 0 t) (iblk m c 1 t) (iblk m c 2 t) p q).trans ?_
  unfold rowEntry
  rw [sqBlock_apply m c t 0 q]
  simp only [featBlock_apply m c t p _ hr, matBlock_apply m c t]

/-- An index of the result is in point `t`'s block iff each coordinate is in the block's range on its axis. -/
theorem mem_blk (t : Fin cfg0.N) (i : S32768x512.Idx) :
    i ∈ ((cfg0.win 3).blk t).view.set ↔ ∀ a : Fin 2, win0_3.index t a * S4096x512.size a ≤ (i a).val ∧ (i a).val < win0_3.index t a * S4096x512.size a + S4096x512.size a := by
  show i ∈ ((View.whole main_v13).slice (win0_3.rect t)).set ↔ _
  rw [View.set_slice_whole, Rect.mem_set_unit]
  exact Iff.rfl

/-- Every index of the result lies in the block of the point its row belongs to. -/
theorem covered (i : S32768x512.Idx) : ∃ t : Fin cfg0.N, (cfg0.win 3).flush t = true ∧ i ∈ ((cfg0.win 3).blk t).view.set := by
  have hi0 : (i 0).val < 32768 := (i 0).isLt
  have hi1 : (i 1).val < 512 := (i 1).isLt
  have hN : cfg0.N = 8 := N_0
  let t : Fin cfg0.N := ⟨(i 0).val / 4096, by omega⟩
  obtain ⟨-, -, -, -, -, -, e0, e1⟩ := block_indices t
  have e0' : win0_3.index t (0 : Fin 2) = (i 0).val / 4096 := e0
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 512 ≤ (i 1).val ∧ (i 1).val < win0_3.index t (1 : Fin 2) * 512 + 512; omega

/-- THE RESULT ARRAY after the run is `distRows` of the three arrays as the region finds them. -/
theorem final (c : Dev nD) : (dats m 0 c).arrAt 3 cfg0.N = distRows (V m c main_v0) (V m c main_v11) (V m c main_v12) :=
  (dats m 0 c).arrAt_eq_of_cover 3 _ (fun t _ => flushed_eq m c t) covered

end Cert.KernelIdeal.Dist

end
-- ==== Proof.HostSide.lean ====
/-
  The host operations around the kernel, and the kernel program's run.

  Before the kernel the program reshapes the features to 32768 rows, scales every codebook row to unit length
  (`unitCode`: the row divided by the square root of its sum of squares), transposes the scaled codebook to a
  256 × 512 matrix and lays the scaled rows' squared lengths out as a 1 × 512 row. After the kernel it reshapes the
  32768 × 512 result to 16 × 2048 × 512. Read by coordinates: feature row `2048 b + s` is row `(b, s)` of the
  argument, entry `(d, k)` of the matrix is entry `(k, d)` of the scaled codebook, entry `(0, k)` of the row of squared
  lengths is the sum of the 256 squares of scaled codebook row `k`, and entry `(b, s, k)` of the program's result is
  entry `(2048 b + s, k)` of the kernel's. The codebook's scaling is the same term in the reference, so it is carried
  as one function and never opened.
-/
import proofs.«172701_j55714315764172_2_alg».proof.Proof.Blocks
import Idealize.ShloMosaic.Lib.ValueLayout
import Idealize.ShloMosaic.Lib.StableHlo.Run

set_option maxRecDepth 16384

noncomputable section

namespace Cert.KernelIdeal.Dist

open Cert.KernelIdeal Cert.KernelIdeal.Gen Idealize.ShloMosaic Idealize.ShloMosaic.TcCoe Idealize.SL.Sem Idealize.ShloMosaic.StableHlo
open Idealize.ShloMosaic.ValueIdx Cert.UnitDist
open Idealize.ShloMosaic.Pipeline (Dat)

/-- The codebook rows scaled to unit length, as the host computes them: each row of the 512 × 256 codebook divided
    by the square root of its own sum of squares. -/
def unitCode (ck : FVec Ideal S1x512x256 .f32) : FVec Ideal S512x256 .f32 :=
  Host.divf (F := Ideal) (shapeCast S512x256 ck shapeCasts_S1x512x256_S512x256)
    (broadcastInDim S512x256 ![0, 1] bcast_S512x1_S512x256_0_1 (Host.sqrt (F := Ideal) (broadcastInDim S512x1 ![0] bcast_S512_S512x1_0
      (Host.reduceAdd (F := Ideal) (mulf (shapeCast S512x256 ck shapeCasts_S1x512x256_S512x256) (shapeCast S512x256 ck shapeCasts_S1x512x256_S512x256))
        (constant (F := Ideal) S_ .f32 0x00000000#32) reducesTo_S512x256_S512_d1 h_S_))))

variable (m : (ℓ : Loc nD τ sig) → Buf (Elt Ideal) ℓ) (ρ : Dev nD → PrngReg)

/-! ## The three arrays the kernel reads, as the region finds them -/

theorem feat_eq (c : Dev nD) : (V m c main_v0 : S32768x256.Idx → EReal)
    = shapeCast S32768x256 (m ((c : Thread nD τ).loc main_arg0)) shapeCasts_S16x2048x256_S32768x256 := by
  show StableHlo.after hostOps0 (fun b => m (c, b)) (Proc.devRef .tc main_v0) = _
  after_results
  rfl

theorem mat_eq (c : Dev nD) : (V m c main_v11 : S256x512.Idx → EReal)
    = transpose S256x512 [1, 0] (unitCode (m ((c : Thread nD τ).loc main_arg1))) transposes_S512x256_S256x512_1_0 := by
  show StableHlo.after hostOps0 (fun b => m (c, b)) (Proc.devRef .tc main_v11) = _
  after_results
  rfl

theorem sqlen_eq (c : Dev nD) : (V m c main_v12 : S1x512.Idx → EReal)
    = shapeCast S1x512 (broadcastInDim S512x1 ![0] bcast_S512_S512x1_0 (Host.reduceAdd (F := Ideal)
        (mulf (unitCode (m ((c : Thread nD τ).loc main_arg1))) (unitCode (m ((c : Thread nD τ).loc main_arg1))))
        (constant (F := Ideal) S_ .f32 0x00000000#32) reducesTo_S512x256_S512_d1 h_S_)) shapeCasts_S512x1_S1x512 := by
  show StableHlo.after hostOps0 (fun b => m (c, b)) (Proc.devRef .tc main_v12) = _
  after_results
  rfl

/-! ## … read by coordinates -/

/-- Feature row `2048 b + s` of the reshaped array is row `(b, s)` of the argument. -/
theorem feat_apply (c : Dev nD) (b : Fin 16) (s : Fin 2048) (d : Fin 256) (hr : b.val * 2048 + s.val < 32768) :
    V m c main_v0 (ix2 (⟨b.val * 2048 + s.val, hr⟩ : Fin 32768) d) = m ((c : Thread nD τ).loc main_arg0) (ix3 b s d) := by
  rw [feat_eq]
  exact shapeCast_apply _ shapeCasts_S16x2048x256_S32768x256 _ (ix3 b s d) (by
    rw [Shape.rowMajor_val_three, Shape.rowMajor_val_two]
    rfl)

/-- Entry `(d, k)` of the matrix is entry `(k, d)` of the scaled codebook. -/
theorem mat_apply (c : Dev nD) (d : Fin 256) (k : Fin 512) :
    V m c main_v11 (ix2 d k) = unitCode (m ((c : Thread nD τ).loc main_arg1)) (ix2 k d) := by
  rw [mat_eq]
  exact transpose_ix2_apply _ transposes_S512x256_S256x512_1_0 d k

/-- Entry `(0, k)` of the row of squared lengths is the sum of the squares of scaled codebook row `k`. -/
theorem sqlen_apply (c : Dev nD) (k : Fin 512) :
    V m c main_v12 (ix2 (0 : Fin 1) k)
      = ∑ d : Fin 256, unitCode (m ((c : Thread nD τ).loc main_arg1)) (ix2 k d) * unitCode (m ((c : Thread nD τ).loc main_arg1)) (ix2 k d) := by
  rw [sqlen_eq]
  refine (shapeCast_apply _ shapeCasts_S512x1_S1x512 (ix2 (0 : Fin 1) k) (ix2 k (0 : Fin 1)) (by
    rw [Shape.rowMajor_val_two, Shape.rowMajor_val_two]
    show k.val * 1 + 0 = 0 * 512 + k.val
    omega)).trans ?_
  refine (broadcastInDim_apply _ bcast_S512_S512x1_0 _ (ix2 k (0 : Fin 1)) (ix1 k) (fun a => match a with
    | ⟨0, _⟩ => by show k.val = if (512 : Nat) = 1 then 0 else k.val; rw [if_neg (by decide)])).trans ?_
  simp only [Host.reduceAdd, Ideal.hostReduceAdd_def]
  rw [Ideal.hostReduceAdd_single reducesTo_S512x256_S512_d1 (by decide)]
  show Ideal.ofBits .f32 0x00000000#32 + _ = _
  rw [Ideal.ofBits_zero_f32, zero_add]
  refine Finset.sum_congr rfl fun j _ => ?_
  exact congrArg (mulf (unitCode (m ((c : Thread nD τ).loc main_arg1))) (unitCode (m ((c : Thread nD τ).loc main_arg1))))
    (funext fun a => Fin.ext (by match a with | ⟨0, _⟩ => rfl | ⟨1, _⟩ => rfl))

/-! ## The program's result and its run -/

/-- After the region and the one host operation that follows it, the program's result is the kernel's result array,
    reshaped. -/
theorem result_eq (c : Dev nD) : Pipeline.afterTail₀ cfgs (dats m) 0 (V0 m) [hostOps1] c main_v14
    = shapeCast S16x2048x512 (distRows (V m c main_v0) (V m c main_v11) (V m c main_v12)) shapeCasts_S32768x512_S16x2048x512 := by
  unfold Pipeline.afterTail₀
  show StableHlo.after hostOps1 _ (Proc.devRef .tc main_v14) = _
  after_results
  exact congrArg (fun z => shapeCast S16x2048x512 z shapeCasts_S32768x512_S16x2048x512)
    ((Pipeline.withArrays_arr spec0 launch0.win.arr_inj c _ _ 3).trans (final m c))

/-- Entry `(b, s, k)` of the reshaped result is entry `(2048 b + s, k)` of the kernel's. -/
theorem result_apply (g : S32768x512.Idx → EReal) (b : Fin 16) (s : Fin 2048) (k : Fin 512) (hr : b.val * 2048 + s.val < 32768) :
    shapeCast S16x2048x512 g shapeCasts_S32768x512_S16x2048x512 (ix3 b s k) = g (ix2 (⟨b.val * 2048 + s.val, hr⟩ : Fin 32768) k) :=
  shapeCast_apply g shapeCasts_S32768x512_S16x2048x512 (ix3 b s k) _ (by
    rw [Shape.rowMajor_val_three, Shape.rowMajor_val_two]
    rfl)

/-- THE KERNEL PROGRAM'S RUN: every weakly fair execution terminates with the result at the reshaped `distRows` of the
    three arrays and the arguments unchanged. -/
theorem run : θ_run defs (onTc (τ := τ) (main (F := Ideal))) ⟨m, fun _ => 0, ρ⟩ fun r => ∀ c : Dev nD,
      r.2.mem ((c : Thread nD τ).loc main_v14)
        = shapeCast S16x2048x512 (distRows (V m c main_v0) (V m c main_v11) (V m c main_v12)) shapeCasts_S32768x512_S16x2048x512
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v14 (Pipeline.mem_restRefs_of main_v14 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Dist

end
-- ==== Proof.RefSide.lean ====
/-
  The reference's result, read at an entry.

  The reference scales every feature row by DIVIDING it by the square root of its sum of squares, scales the codebook
  rows the same way, and returns `(|u|² + |c|²) − 2 ⟨u, c⟩` for every pair of a scaled feature row `u` and a scaled
  codebook row `c`. At entry `(b, s, k)` this is `entryOf` of the quotient-scaled feature row `(b, s)`, of the sum of
  squares of scaled codebook row `k` and of that row: the host's sums start from the zero word, which adds nothing, and
  every layout step between the operations reads its operand at the evident coordinates.
-/
import proofs.«172701_j55714315764172_2_alg».proof.Proof.Gen.ReferenceIdeal.Read
import proofs.«172701_j55714315764172_2_alg».proof.Proof.Spec

noncomputable section

namespace Cert.ReferenceIdeal.Dist

open Cert.ReferenceIdeal Cert.ReferenceIdeal.Read Idealize.ShloMosaic Idealize.ShloMosaic.ValueIdx Cert.UnitDist

/-- The reference's scaled features at `(b, s, d)`: the feature divided by the square root of row `(b, s)`'s sum of
    squares. -/
theorem unit_apply (x0 : FVec Ideal S16x2048x256 .f32) (b : Fin 16) (s : Fin 2048) (d : Fin 256) :
    val_main_v5 (F := Ideal) x0 (ix3 b s d)
      = Ideal.div (x0 (ix3 b s d)) (Ideal.sqrt (∑ e : Fin 256, x0 (ix3 b s e) * x0 (ix3 b s e))) := by
  have ei : ∀ e : Fin 256, idx_main_v1 (idx_main_v2 (idx_main_v4 (ix3 b s d))) e = ix3 b s e := fun e =>
    funext fun a => Fin.ext (by match a with | ⟨0, _⟩ => rfl | ⟨1, _⟩ => rfl | ⟨2, _⟩ => rfl)
  rw [val_main_v5_apply, val_main_v4_apply, val_main_v3_apply, val_main_v2_apply, val_main_v1_apply]
  simp only [val_main_v0_apply, val_main_cst_apply, ei, Ideal.hostDivf_def, Ideal.hostUnary_sqrt_def, Ideal.mulf_def,
    Ideal.ofBits_def, Ideal.ofBits_zero_f32, zero_add]

/-- The squared length of the reference's scaled feature row `(b, s)`, copied across the 512 columns, at `(b, s, k)`. -/
theorem unitSq_apply (x0 : FVec Ideal S16x2048x256 .f32) (b : Fin 16) (s : Fin 2048) (k : Fin 512) :
    val_main_v20 (F := Ideal) x0 (ix3 b s k)
      = ∑ d : Fin 256, val_main_v5 (F := Ideal) x0 (ix3 b s d) * val_main_v5 (F := Ideal) x0 (ix3 b s d) := by
  have ei : ∀ d : Fin 256, idx_main_v14 (idx_main_v15 (idx_main_v20 (ix3 b s k))) d = ix3 b s d := fun d =>
    funext fun a => Fin.ext (by match a with | ⟨0, _⟩ => rfl | ⟨1, _⟩ => rfl | ⟨2, _⟩ => rfl)
  rw [val_main_v20_apply, val_main_v15_apply, val_main_v14_apply]
  simp only [val_main_v13_apply, val_main_cst_1_apply, ei, Ideal.mulf_def, Ideal.ofBits_def, Ideal.ofBits_zero_f32, zero_add]

/-- The squared length of scaled codebook row `k`, copied across the features' axes, at `(b, s, k)`. -/
theorem codeSq_apply (x1 : FVec Ideal S1x512x256 .f32) (b : Fin 16) (s : Fin 2048) (k : Fin 512) :
    val_main_v21 (F := Ideal) x1 (ix3 b s k)
      = ∑ d : Fin 256, val_main_v12 (F := Ideal) x1 (ix2 k d) * val_main_v12 (F := Ideal) x1 (ix2 k d) := by
  have ei : ∀ d : Fin 256, idx_main_v17 (idx_main_v19 (idx_main_v21 (ix3 b s k))) d = ix2 k d := fun d =>
    funext fun a => Fin.ext (by match a with | ⟨0, _⟩ => rfl | ⟨1, _⟩ => rfl)
  rw [val_main_v21_apply, val_main_v19_apply, val_main_v17_apply]
  simp only [val_main_v16_apply, val_main_cst_2_apply, ei, Ideal.mulf_def, Ideal.ofBits_def, Ideal.ofBits_zero_f32, zero_add]

/-- The product of the scaled features with the scaled codebook, at `(b, s, k)`. -/
theorem cross_apply (x0 : FVec Ideal S16x2048x256 .f32) (x1 : FVec Ideal S1x512x256 .f32) (b : Fin 16) (s : Fin 2048) (k : Fin 512) :
    val_main_v18 (F := Ideal) x0 x1 (ix3 b s k)
      = ∑ d : Fin 256, val_main_v5 (F := Ideal) x0 (ix3 b s d) * val_main_v12 (F := Ideal) x1 (ix2 k d) := by
  have el : ∀ d : Fin 256, lidx_main_v18 (ix3 b s k) d = ix3 b s d := fun d =>
    funext fun a => Fin.ext (by match a with | ⟨0, _⟩ => rfl | ⟨1, _⟩ => rfl | ⟨2, _⟩ => rfl)
  have er : ∀ d : Fin 256, ridx_main_v18 (ix3 b s k) d = ix2 k d := fun d =>
    funext fun a => Fin.ext (by match a with | ⟨0, _⟩ => rfl | ⟨1, _⟩ => rfl)
  rw [val_main_v18_apply]
  simp only [el, er]

/-- THE REFERENCE'S RESULT AT AN ENTRY. -/
theorem result_apply (x0 : FVec Ideal S16x2048x256 .f32) (x1 : FVec Ideal S1x512x256 .f32) (b : Fin 16) (s : Fin 2048) (k : Fin 512) :
    val_main_v25 (F := Ideal) x0 x1 (ix3 b s k)
      = entryOf (fun d => Ideal.div (x0 (ix3 b s d)) (Ideal.sqrt (∑ e : Fin 256, x0 (ix3 b s e) * x0 (ix3 b s e))))
          (∑ d : Fin 256, val_main_v12 (F := Ideal) x1 (ix2 k d) * val_main_v12 (F := Ideal) x1 (ix2 k d))
          (fun d => val_main_v12 (F := Ideal) x1 (ix2 k d)) := by
  rw [val_main_v25_apply, val_main_v22_apply, val_main_v24_apply, val_main_v23_apply, val_main_cst_3_apply,
    unitSq_apply, codeSq_apply, cross_apply]
  simp only [unit_apply, Ideal.addf_def, Ideal.subf_def, Ideal.mulf_def, Ideal.ofBits_def]
  rfl

end Cert.ReferenceIdeal.Dist

end
-- ==== Proof.Bridge.lean ====
/-
  The two programs compute one function.

  The kernel program's result at `(b, s, k)` is `entryOf` of feature row `(b, s)` scaled by the reciprocal square root
  of its sum of squares `σ`; the reference's is `entryOf` of the same row divided by `√σ`; the codebook side — the
  scaled codebook row `k` and its squared length — is one and the same term in both. Under the precondition `0 < σ` for
  every row, and there `x · σ^(-1/2) = x / √σ` on the extended reals, so the two results agree entry by entry.
-/
import proofs.«172701_j55714315764172_2_alg».proof.Proof.HostSide
import proofs.«172701_j55714315764172_2_alg».proof.Proof.RefSide

set_option maxRecDepth 16384

noncomputable section

namespace Cert.Proof.Dist

open Cert.KernelIdeal Cert.KernelIdeal.Gen Cert.KernelIdeal.Dist Idealize.ShloMosaic Idealize.ShloMosaic.TcCoe Idealize.SL.Sem
open Idealize.ShloMosaic.ValueIdx Cert.UnitDist

/-- The kernel program's scaled codebook is the reference's: the same operations on the same argument. -/
theorem code_eq (ck : FVec Ideal S1x512x256 .f32) :
    unitCode ck = Cert.ReferenceIdeal.Read.val_main_v12 (F := Ideal) ck := rfl

variable (m : (ℓ : Loc nD τ sig) → Buf (Elt Ideal) ℓ)

/-- THE KERNEL PROGRAM'S RESULT IS THE REFERENCE'S, as functions of the two arguments, when every feature row has a
    positive sum of squares. -/
theorem kernel_eq_reference (c : Dev nD) (x : FVec Ideal S16x2048x256 .f32) (hx : m ((c : Thread nD τ).loc main_arg0) = x)
    (hpos : ∀ (b : Fin 16) (s : Fin 2048), 0 < ∑ d : Fin 256, x (ix3 b s d) * x (ix3 b s d)) :
    shapeCast S16x2048x512 (distRows (V m c main_v0) (V m c main_v11) (V m c main_v12)) shapeCasts_S32768x512_S16x2048x512
      = Cert.ReferenceIdeal.Read.val_main_v25 (F := Ideal) (m ((c : Thread nD τ).loc main_arg0)) (m ((c : Thread nD τ).loc main_arg1)) := by
  subst hx
  funext i
  obtain ⟨b, s, k, rfl⟩ : ∃ (b : Fin 16) (s : Fin 2048) (k : Fin 512), i = ix3 b s k := ⟨i 0, i 1, i 2, eq_ix3 i⟩
  have hr : b.val * 2048 + s.val < 32768 := by have := b.isLt; have := s.isLt; omega
  rw [Cert.KernelIdeal.Dist.result_apply _ b s k hr, distRows_apply]
  refine Eq.trans ?_ (Cert.ReferenceIdeal.Dist.result_apply _ _ b s k).symm
  unfold rowEntry
  rw [sqlen_apply, ← code_eq]
  simp only [feat_apply m c b s _ hr, mat_apply m c]
  exact congrArg (fun u : Fin 256 → EReal => entryOf u _ _) (funext fun d => mul_rsqrt_eq_div_sqrt _ _ (hpos b s))

end Cert.Proof.Dist

end
-- ==== Proof.lean ====
/-
  Squared distances between unit-length feature rows and unit-length codebook rows: a tiled kernel against its
  reference, equal over the extended reals.

  Both programs take features `x : [16, 2048, 256]` and a codebook `C : [1, 512, 256]`, scale every feature row and
  every codebook row to unit length, and return `|u|² + |c|² − 2 ⟨u, c⟩` for every feature row `u` and codebook row `c`.
  The kernel program reshapes the features to 32768 rows, prepares the scaled codebook (transposed) and its rows' squared
  lengths on the host, and runs a kernel over eight blocks of 4096 rows; inside, a row is scaled by MULTIPLYING with
  the reciprocal square root of its sum of squares `σ`. The reference DIVIDES the row by `√σ`. For `0 < σ` these are the
  same extended real; for the zero row they are not (`0 · ⊤ = 0` against `0 / 0`), which is why the precondition asks
  every feature row to have a positive sum of squares — the rows on which the reference's own quotient is defined.

  The three frames are the generated ones (the reference's is its run with the result dropped), the kernel has no
  idealization rewrite to account for, and the value claim sets the kernel program's run (`Dist.run`: the result is
  the reshaped `distRows` of the three arrays the kernel reads) beside the reference's run, joined by
  `kernel_eq_reference`.
-/
import proofs.«172701_j55714315764172_2_alg».proof.Defs
import proofs.«172701_j55714315764172_2_alg».proof.Proof.Gen.Kernel
import proofs.«172701_j55714315764172_2_alg».proof.Proof.Gen.Kernel.Skeleton
import proofs.«172701_j55714315764172_2_alg».proof.Proof.Gen.Kernel.Launch
import proofs.«172701_j55714315764172_2_alg».proof.Proof.Gen.Kernel.Points
import proofs.«172701_j55714315764172_2_alg».proof.Proof.Gen.Kernel.Frame
import proofs.«172701_j55714315764172_2_alg».proof.Proof.Gen.KernelIdeal
import proofs.«172701_j55714315764172_2_alg».proof.Proof.Gen.KernelIdeal.Skeleton
import proofs.«172701_j55714315764172_2_alg».proof.Proof.Gen.KernelIdeal.Launch
import proofs.«172701_j55714315764172_2_alg».proof.Proof.Gen.KernelIdeal.Points
import proofs.«172701_j55714315764172_2_alg».proof.Proof.Gen.KernelIdeal.Frame
import proofs.«172701_j55714315764172_2_alg».proof.Proof.Gen.ReferenceIdeal
import proofs.«172701_j55714315764172_2_alg».proof.Proof.Gen.ReferenceIdeal.Run
import proofs.«172701_j55714315764172_2_alg».proof.Proof.Gen.ReferenceIdeal.Read
import proofs.«172701_j55714315764172_2_alg».proof.Proof.Gen.Pre_finite_inputs
import proofs.«172701_j55714315764172_2_alg».proof.Proof.RowsPositive
import proofs.«172701_j55714315764172_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel program ends with its result at the reshaped `distRows` and the reference with its result at its own
    composed term, from memories agreeing on the arguments; under the precondition every feature row has a positive
    sum of squares, so the first is the second (`kernel_eq_reference`). -/
theorem algebraic : Cert.algebraic_KernelIdeal_ReferenceIdeal := by
  intro m ρ m' ρ' hpre hagree
  refine ⟨fun c => Cert.ReferenceIdeal.Read.val_main_v25 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.Proof.Dist.kernel_eq_reference m c _ rfl
        (fun b s => Cert.Pre_finite_inputs.Rows.rows_pos _ _ (hpre c) b s)), (h c).2⟩)
      (Cert.KernelIdeal.Dist.run m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v25_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
